-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S40x64 : Shape := ⟨2, ![40, 64]⟩
abbrev S40 : Shape := ⟨1, ![40]⟩
abbrev S40x40 : Shape := ⟨2, ![40, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_

variable [Facts]

def fn_part3 {F : FTy → Type} [FloatOps F] (main_arg12 : FVec F S40x40 .f32) (main_arg13 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S40x40 .f32 := Host.absf main_arg12
  let main_cst_20 : FVec F S_ .f32 := constant S_ .f32 0x7F800000#32
  let main_v55 : FVec F S40x40 .f32 := broadcastInDim S40x40 ![] bcast_S_S40x40 main_cst_20
  let main_v56 : IVec S40x40 1 := cmpf .olt main_v54 main_v55
  let main_c_21 : IVec S_ 1 := constantI S_ 1 1#1
  let main_v57 : IVec S_ 1 := (fun x v => Host.reduce IntOp.andi x v reducesTo_S40x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S40x64 .f32) (main_arg9 : FVec F S40 .f32) (main_arg10 : FVec F S40x40 .f32) (main_arg11 : FVec F S40 .f32) (main_arg12 : FVec F S40x40 .f32) (main_arg13 : FVec F S40 .f32) (main_v33 : IVec S_ 1) : IVec S_ 1 :=
  let main_v34 : FVec F S40x64 .f32 := Host.absf main_arg8
  let main_cst_12 : FVec F S_ .f32 := constant S_ .f32 0x7F800000#32
  let main_v35 : FVec F S40x64 .f32 := broadcastInDim S40x64 ![] bcast_S_S40x64 main_cst_12
  let main_v36 : IVec S40x64 1 := cmpf .olt main_v34 main_v35
  let main_c_13 : IVec S_ 1 := constantI S_ 1 1#1
  let main_v37 : IVec S_ 1 := (fun x v => Host.reduce IntOp.andi x v reducesTo_S40x64_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S40x40 .f32 := Host.absf main_arg10
  let main_cst_16 : FVec F S_ .f32 := constant S_ .f32 0x7F800000#32
  let main_v45 : FVec F S40x40 .f32 := broadcastInDim S40x40 ![] bcast_S_S40x40 main_cst_16
  let main_v46 : IVec S40x40 1 := cmpf .olt main_v44 main_v45
  let main_c_17 : IVec S_ 1 := constantI S_ 1 1#1
  let main_v47 : IVec S_ 1 := (fun x v => Host.reduce IntOp.andi x v reducesTo_S40x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S40x64 .f32) (main_arg9 : FVec F S40 .f32) (main_arg10 : FVec F S40x40 .f32) (main_arg11 : FVec F S40 .f32) (main_arg12 : FVec F S40x40 .f32) (main_arg13 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1000000 32) (main_arg2 : FVec F S64x128 .f32) (main_arg3 : FVec F S64 .f32) (main_arg4 : FVec F S64x64 .f32) (main_arg5 : FVec F S64 .f32) (main_arg6 : FVec F S64x64 .f32) (main_arg7 : FVec F S64 .f32) (main_arg8 : FVec F S40x64 .f32) (main_arg9 : FVec F S40 .f32) (main_arg10 : FVec F S40x40 .f32) (main_arg11 : FVec F S40 .f32) (main_arg12 : FVec F S40x40 .f32) (main_arg13 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S40x64 : Shape := ⟨2, ![40, 64]⟩
abbrev S40 : Shape := ⟨1, ![40]⟩
abbrev S40x40 : Shape := ⟨2, ![40, 40]⟩
abbrev S1x1000000 : Shape := ⟨2, ![1, 1000000]⟩
abbrev S1000000 : Shape := ⟨1, ![1000000]⟩
abbrev S100000x64 : Shape := ⟨2, ![100000, 64]⟩
abbrev S5000x128 : Shape := ⟨2, ![5000, 128]⟩
abbrev S5000x64 : Shape := ⟨2, ![5000, 64]⟩
abbrev S128x64 : Shape := ⟨2, ![128, 64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S100000x40 : Shape := ⟨2, ![100000, 40]⟩
abbrev S5000x40 : Shape := ⟨2, ![5000, 40]⟩
abbrev S64x40 : Shape := ⟨2, ![64, 40]⟩
abbrev S1x40 : Shape := ⟨2, ![1, 40]⟩
abbrev S1000000x40 : Shape := ⟨2, ![1000000, 40]⟩

abbrev nBuf : Space → Nat
  | .hbm => 49
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S40x64, .f32⟩
  | .hbm, ⟨9, _⟩ => ⟨S40, .f32⟩
  | .hbm, ⟨10, _⟩ => ⟨S40x40, .f32⟩
  | .hbm, ⟨11, _⟩ => ⟨S40, .f32⟩
  | .hbm, ⟨12, _⟩ => ⟨S40x40, .f32⟩
  | .hbm, ⟨13, _⟩ => ⟨S40, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S100000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S100000x64, .f32⟩
  | .hbm, ⟨33, _⟩ => ⟨S100000x40, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x40, .f32⟩
  | .hbm, ⟨43, _⟩ => ⟨S_, .f32⟩
  | .hbm, ⟨44, _⟩ => ⟨S100000x40, .f32⟩
  | .hbm, ⟨45, _⟩ => ⟨S1000000x1, .i32⟩
  | .hbm, ⟨46, _⟩ => ⟨S100000x40, .f32⟩
  | .hbm, ⟨47, _⟩ => ⟨S100000x40, .f32⟩
  | .hbm, ⟨48, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S40x64, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S40x40, .f32⟩
  | .local _ .vmem, ⟨19, _⟩ => ⟨S40, .f32⟩
  | .local _ .vmem, ⟨20, _⟩ => ⟨S40x40, .f32⟩
  | .local _ .vmem, ⟨21, _⟩ => ⟨S40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S40x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S40x64_S40x64_0_0 : ∀ a, (![0, 0] : Fin 2 → Nat) a + S40x64.size a ≤ S40x64.size a
  h_S40x64 : 0 < S40x64.numel
  transposes_S40x64_p1_0_S64x40 : S40x64.Transposes [1, 0] S64x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S40x40_S40x40_0_0 : ∀ a, (![0, 0] : Fin 2 → Nat) a + S40x40.size a ≤ S40x40.size a
  h_S40x40 : 0 < S40x40.numel
  transposes_S40x40_p1_0_S40x40 : S40x40.Transposes [1, 0] S40x40
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1000000x1_S1000000x40_1_0_n_n_0_1_140_wf : GatherDims.WF S100000x40 S1000000x1 S1000000x40 [1] [0] [] [0] [] 1 ![1, 40]
  scatter_S100000x40_S1000000x1_S1000000x40_1_0_0_1_wf : ScatterDims.WF S100000x40 S1000000x1 S1000000x40 [1] [0] [0] 1
  dot_S5000x40_S40x40_S5000x40_1_0_0_1_n_n_wf : DotDims.WF S5000x40 S40x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40x64.size a ≤ S40x64.size a
  hwx1_5 : ∀ i : grid1.Coords, EltTy.bits .f32 = 32 ∨ (Rect.block (s := S40x64) S40x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S40.size a ≤ S40.size a
  hwx1_6 : ∀ i : grid1.Coords, EltTy.bits .f32 = 32 ∨ (Rect.block (s := S40) S40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x40.size a ≤ S100000x40.size a
  hwx1_7 : ∀ i : grid1.Coords, EltTy.bits .f32 = 32 ∨ (Rect.block (s := S100000x40) S5000x40.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x40.size a ≤ S40x40.size a
  hwx2_1 : ∀ i : grid2.Coords, EltTy.bits .f32 = 32 ∨ (Rect.block (s := S40x40) S40x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S40.size a ≤ S40.size a
  hwx2_2 : ∀ i : grid2.Coords, EltTy.bits .f32 = 32 ∨ (Rect.block (s := S40) S40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40x40.size a ≤ S40x40.size a
  hwx2_3 : ∀ i : grid2.Coords, EltTy.bits .f32 = 32 ∨ (Rect.block (s := S40x40) S40x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S40.size a ≤ S40.size a
  hwx2_4 : ∀ i : grid2.Coords, EltTy.bits .f32 = 32 ∨ (Rect.block (s := S40) S40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S40x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S5000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S40x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S40x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S40x64 : Shape := ⟨2, ![40, 64]⟩
abbrev S40 : Shape := ⟨1, ![40]⟩
abbrev S40x40 : Shape := ⟨2, ![40, 40]⟩
abbrev S1x1000000 : Shape := ⟨2, ![1, 1000000]⟩
abbrev S1000000 : Shape := ⟨1, ![1000000]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S64x40 : Shape := ⟨2, ![64, 40]⟩
abbrev S100000x40 : Shape := ⟨2, ![100000, 40]⟩
abbrev S1x40 : Shape := ⟨2, ![1, 40]⟩
abbrev S1000000x40 : Shape := ⟨2, ![1000000, 40]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S40x64, .f32⟩
  | .hbm, ⟨9, _⟩ => ⟨S40, .f32⟩
  | .hbm, ⟨10, _⟩ => ⟨S40x40, .f32⟩
  | .hbm, ⟨11, _⟩ => ⟨S40, .f32⟩
  | .hbm, ⟨12, _⟩ => ⟨S40x40, .f32⟩
  | .hbm, ⟨13, _⟩ => ⟨S40, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S128x64, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .f32⟩
  | .hbm, ⟨33, _⟩ => ⟨S100000x64, .f32⟩
  | .hbm, ⟨34, _⟩ => ⟨S1000000x1, .i32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S64x40, .f32⟩
  | .hbm, ⟨57, _⟩ => ⟨S100000x40, .f32⟩
  | .hbm, ⟨58, _⟩ => ⟨S1x40, .f32⟩
  | .hbm, ⟨59, _⟩ => ⟨S100000x40, .f32⟩
  | .hbm, ⟨60, _⟩ => ⟨S100000x40, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x40, .f32⟩
  | .hbm, ⟨70, _⟩ => ⟨S_, .f32⟩
  | .hbm, ⟨71, _⟩ => ⟨S100000x40, .f32⟩
  | .hbm, ⟨72, _⟩ => ⟨S1000000x1, .i32⟩
  | .hbm, ⟨73, _⟩ => ⟨S100000x40, .f32⟩
  | .hbm, ⟨74, _⟩ => ⟨S100000x40, .f32⟩
  | .hbm, ⟨75, _⟩ => ⟨S_, .f32⟩
  | .hbm, ⟨76, _⟩ => ⟨S100000x40, .f32⟩
  | .hbm, ⟨77, _⟩ => ⟨S100000x40, .f32⟩
  | .hbm, ⟨78, _⟩ => ⟨S40x40, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | .hbm, ⟨83, _⟩ => ⟨S_, .f32⟩
  | .hbm, ⟨84, _⟩ => ⟨S100000x40, .f32⟩
  | .hbm, ⟨85, _⟩ => ⟨S100000x40, .f32⟩
  | .hbm, ⟨86, _⟩ => ⟨S40x40, .f32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_cst : Ref sig .tc := ⟨.hbm, 53, rfl⟩
abbrev main_call2_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_1 : Ref sig .tc := ⟨.hbm, 61, rfl⟩
abbrev main_v38 : Ref sig .tc := ⟨.hbm, 62, rfl⟩
abbrev main_v39 : Ref sig .tc := ⟨.hbm, 63, rfl⟩
abbrev main_c_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call3_cst : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call4_cst : Ref sig .tc := ⟨.hbm, 83, rfl⟩
abbrev main_call4_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  transposes_S64x64_S64x64_1_0 : S64x64.Transposes [1, 0] S64x64
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  transposes_S40x40_S40x40_1_0 : S40x40.Transposes [1, 0] S40x40
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1000000x1_S1000000x40_1_0_n_n_0_1_140_wf : GatherDims.WF S100000x40 S1000000x1 S1000000x40 [1] [0] [] [0] [] 1 ![1, 40]
  scatter_S100000x40_S1000000x1_S1000000x40_1_0_0_1_wf : ScatterDims.WF S100000x40 S1000000x1 S1000000x40 [1] [0] [0] 1
  dot_S100000x40_S40x40_S100000x40_1_0_0_1_n_n_wf : DotDims.WF S100000x40 S40x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf

class Facts : Prop extends Facts₀ where

variable [Facts]
-- ==== Proof.KernelRun.lean ====
/-
  The idealized kernel program, run whole, with its result named. The program is three row-tiled dense stages
  separated by two stretches of host operations; the contents of every buffer at each boundary are a fold from the
  launch memory (host operations applied in order, each dense stage's arrays replaced by what its write-backs leave).
  Every weakly fair execution terminates, without a fault, with the result buffer holding the last boundary's
  contents at that buffer and every argument array as launched.
-/
import proofs.«105024_j65506841199132_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched.
    The final thread state holds every unscoped buffer at the last boundary's contents; reading it against the final
    memory gives the result buffer as well as the arguments. -/
theorem run_value : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.ValueRun

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«105024_j65506841199132_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseRows.lean ====
/-
  A dense stage applied to the rows of a matrix, on the extended reals, for any extents.
  The row-affine map sends a [m, k] matrix a, a [n, k] weight w and a bias [n] to the [m, n] matrix whose entry (p, q)
  is the k-term sum of a(p, j) * w(q, j) plus b(q): rows of a against rows of w. The rectifier takes, entry by entry,
  the maximum with the value of the all-zero f32 word. Both commute with selecting rows of a.
  The product of a by the transpose of w, taken into a zero accumulator after casting both to a narrower float format
  (the identity on the extended reals), plus the bias laid out as a row and repeated down the rows, is this map; so is a
  general product of a against the transposed weight plus the bias broadcast first to a row and then down the rows.
  The maximum with the zero word repeated over the shape, and the maximum with a scalar zero broadcast over the shape,
  are both the rectifier.
-/
import Idealize.ShloMosaic.Lib.ValueLayout
import Idealize.ShloMosaic.Lib.Pipeline.Value
import Idealize.ShloMosaic.PureOps.Ideal.Laws
import proofs.«105024_j65506841199132_1_alg».proof.Proof.LibMatmulPlain
import proofs.«105024_j65506841199132_1_alg».proof.Proof.LibAffineRows

noncomputable section

namespace Cert.LibDenseRows

open Idealize.ShloMosaic Idealize.ShloMosaic.ValueIdx Cert.LibMatmulPlain Cert.LibAffineRows

variable {m k n : Nat}

/-- Rows of `a` against rows of `w`, plus the bias: entry (p, q) is the sum over j of a(p, j) * w(q, j), plus b(q). -/
def affine (a : FVec Ideal ⟨2, ![m, k]⟩ .f32) (w : FVec Ideal ⟨2, ![n, k]⟩ .f32) (b : FVec Ideal ⟨1, ![n]⟩ .f32) :
    FVec Ideal ⟨2, ![m, n]⟩ .f32 :=
  fun i => (∑ j : Fin k, a (ix2 (i 0) j) * w (ix2 (i 1) j)) + b (ix1 (i 1))

theorem affine_apply (a : FVec Ideal ⟨2, ![m, k]⟩ .f32) (w : FVec Ideal ⟨2, ![n, k]⟩ .f32) (b : FVec Ideal ⟨1, ![n]⟩ .f32)
    (p : Fin m) (q : Fin n) : affine a w b (ix2 p q) = (∑ j : Fin k, a (ix2 p j) * w (ix2 q j)) + b (ix1 q) := rfl

/-- The rectifier: entry by entry the maximum with the value of the all-zero f32 word. -/
def rect {s : Shape} (a : FVec Ideal s .f32) : FVec Ideal s .f32 := fun i => max (a i) (Ideal.ofBits .f32 0x00000000#32)

/-- The rows of `a` picked by `r`, in that order. -/
def sel {m' : Nat} (r : Fin m' → Fin m) (a : FVec Ideal ⟨2, ![m, k]⟩ .f32) : FVec Ideal ⟨2, ![m', k]⟩ .f32 :=
  fun y => a (ix2 (r (y 0)) (y 1))

/-- A dense stage of selected rows is the selected rows of the dense stage: each output row depends on its own input row. -/
theorem affine_sel {m' : Nat} (r : Fin m' → Fin m) (a : FVec Ideal ⟨2, ![m, k]⟩ .f32) (w : FVec Ideal ⟨2, ![n, k]⟩ .f32)
    (b : FVec Ideal ⟨1, ![n]⟩ .f32) : affine (sel r a) w b = sel r (affine a w b) := rfl

/-- The rectifier acts entry by entry, so it commutes with selecting rows. -/
theorem rect_sel {m' : Nat} (r : Fin m' → Fin m) (a : FVec Ideal ⟨2, ![m, k]⟩ .f32) : rect (sel r a) = sel r (rect a) := rfl

/-- Operands cast to a narrower format (the identity on the extended reals), the weight transposed, the product taken
    into a zero accumulator, the bias laid out as a row and repeated down the rows: the row-affine map. -/
theorem tileDense_eq {ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![n, k]⟩ .f32) (b : FVec Ideal ⟨1, ![n]⟩ .f32)
    (hψ : ψ.bits < FTy.f32.bits) (tr : (⟨2, ![n, k]⟩ : Shape).Transposes [1, 0] ⟨2, ![k, n]⟩)
    (hc : (⟨1, ![n]⟩ : Shape).ShapeCasts ⟨2, ![1, n]⟩) (hb : (⟨2, ![1, n]⟩ : Shape).Broadcasts ⟨2, ![m, n]⟩) :
    addf (matmul d none (truncf ψ a hψ) (transpose ⟨2, ![k, n]⟩ [1, 0] (truncf ψ w hψ) tr) (constant ⟨2, ![m, n]⟩ .f32 0x00000000#32))
        (broadcastTo ⟨2, ![m, n]⟩ (shapeCast ⟨2, ![1, n]⟩ b hc) hb)
      = affine a w b := by
  subst hd
  funext i
  obtain ⟨p, q, rfl⟩ : ∃ (p : Fin m) (q : Fin n), i = ix2 p q := ⟨i 0, i 1, eq_ix2 i⟩
  show FloatOps.matmul (plainDims m k n wf) none (truncf ψ a hψ) (transpose ⟨2, ![k, n]⟩ [1, 0] (truncf ψ w hψ) tr)
        (constant ⟨2, ![m, n]⟩ .f32 0x00000000#32) (ix2 p q)
      + broadcastTo ⟨2, ![m, n]⟩ (shapeCast ⟨2, ![1, n]⟩ b hc) hb (ix2 p q) = _
  rw [matmul_zero_apply wf none _ _ p q, biasRows_apply b hc hb p q, affine_apply]
  refine congrArg (· + b (ix1 q)) (Finset.sum_congr rfl fun j _ => ?_)
  rw [transpose_ix2_apply]
  rfl

/-- A general product against the transposed weight, the bias broadcast to a row and then down the rows: the row-affine map. -/
theorem hostDense_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![n, k]⟩ .f32) (b : FVec Ideal ⟨1, ![n]⟩ .f32)
    (tr : (⟨2, ![n, k]⟩ : Shape).Transposes [1, 0] ⟨2, ![k, n]⟩)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral d none a (transpose ⟨2, ![k, n]⟩ [1, 0] w tr))
        (broadcastInDim ⟨2, ![m, n]⟩ ![0, 1] h2 (broadcastInDim ⟨2, ![1, n]⟩ ![1] h1 b))
      = affine a w b := by
  subst hd
  funext i
  obtain ⟨p, q, rfl⟩ : ∃ (p : Fin m) (q : Fin n), i = ix2 p q := ⟨i 0, i 1, eq_ix2 i⟩
  show Host.dotGeneral (plainDims m k n wf) none a (transpose ⟨2, ![k, n]⟩ [1, 0] w tr) (ix2 p q)
      + broadcastInDim ⟨2, ![m, n]⟩ ![0, 1] h2 (broadcastInDim ⟨2, ![1, n]⟩ ![1] h1 b) (ix2 p q) = _
  have hbias : broadcastInDim ⟨2, ![m, n]⟩ ![0, 1] h2 (broadcastInDim ⟨2, ![1, n]⟩ ![1] h1 b) (ix2 p q) = b (ix1 q) := by
    refine (broadcastInDim_apply _ h2 _ (ix2 p q) (ix2 (0 : Fin 1) q) fun ax => ?_).trans
      (broadcastInDim_apply _ h1 b (ix2 (0 : Fin 1) q) (ix1 q) fun ax => ?_)
    · match ax with
      | ⟨0, _⟩ => show (0 : Nat) = if (1 : Nat) = 1 then 0 else p.val; rw [if_pos rfl]
      | ⟨1, _⟩ => show q.val = if n = 1 then 0 else q.val; split_ifs with h <;> omega
    · match ax with
      | ⟨0, _⟩ => show q.val = if n = 1 then 0 else q.val; split_ifs with h <;> omega
  rw [hbias, affine_apply]
  refine congrArg (· + b (ix1 q)) ?_
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j, transpose_ix2_apply]

/-- The maximum with the zero word repeated over the shape is the rectifier. -/
theorem tileRect_eq {s : Shape} (a : FVec Ideal s .f32) :
    maximumf a (broadcast s (Scalar.ofBits (F := Ideal) .f32 0x00000000#32)) = rect a := rfl

/-- The maximum with the zero word as a scalar constant broadcast over the shape is the rectifier. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

end Cert.LibDenseRows

end
-- ==== Proof.Tiles.lean ====
/-
  Row tiles. The three dense stages each cut their [100000, ·] operand and result into 20 tiles of 5000 consecutive rows:
  tile t holds rows 5000 t … 5000 t + 4999.
-/
import proofs.«105024_j65506841199132_1_alg».proof.Proof.LibDenseRows

noncomputable section

namespace Cert.Tiles

open Idealize.ShloMosaic

theorem hz : (![0, 0] : Fin 2 → Nat) = fun _ => 0 := funext fun a => by fin_cases a <;> rfl
theorem hz1 : (![0] : Fin 1 → Nat) = fun _ => 0 := funext fun a => by fin_cases a; rfl

/-- Row p of tile t is row 5000 t + p of the matrix. -/
def rowAt (t : Nat) (ht : t < 20) (p : Fin 5000) : Fin 100000 := ⟨5000 * t + p.val, by have := p.isLt; omega⟩

theorem rowAt_val (t : Nat) (ht : t < 20) (p : Fin 5000) : (rowAt t ht p).val = 5000 * t + p.val := rfl

end Cert.Tiles

end
-- ==== Proof.Stage0.lean ====
/-
  The first dense stage h = x·w1ᵀ + b1, computed 5000 rows at a time, is the dense stage of the whole matrix.
  Point t of the grid loads rows 5000 t … 5000 t + 4999 of x and the whole of w1 and b1, and writes the same rows of h.
  A row of the result depends on the same row of x only, so the tile of the result is the result's tile; the 20 tiles
  cover all 100000 rows.
-/
import proofs.«105024_j65506841199132_1_alg».proof.Proof.Gen.KernelIdeal.Frame
import proofs.«105024_j65506841199132_1_alg».proof.Proof.Tiles
import Idealize.ShloMosaic.Lib.Pipeline.Value

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx Cert.LibDenseRows Cert.Tiles
open Idealize.ShloMosaic.Pipeline (Dat)
open Cert.KernelIdeal.Facts₀ Cert.KernelIdeal.Facts

variable (V : (c : Dev nD) → (b : Ref sig .tc) → Buf (Elt Ideal) ((c : Thread nD τ).loc b))

theorem tlt (t : Fin cfg0.N) : t.val < 20 := by have h := t.isLt; have hN : cfg0.N = 20 := N_0; omega

/-- The body's arithmetic on its loaded tiles is the dense stage of them. -/
theorem pay_eq (x0 : FVec Ideal S5000x128 .f32) (x1 : FVec Ideal S64x128 .f32) (x2 : FVec Ideal S64 .f32) :
    k0_pay1 x0 x1 x2 = affine x0 x1 x2 := by
  unfold k0_pay1
  exact tileDense_eq _ Facts₀.dot_S5000x128_S128x64_S5000x64_1_0_0_1_n_n_wf rfl x0 x1 x2 _ _ _ _

/-- The index maps over the grid: x and h sit at block (t, 0), the weight and the bias at block 0. -/
theorem idx_x : ∀ t : Fin cfg0.N, win0_0.index t (0 : Fin 2) = t.val ∧ win0_0.index t (1 : Fin 2) = 0 :=
  (by decide +kernel : ∀ t : Fin grid0.N, _)
theorem idx_w : ∀ t : Fin cfg0.N, win0_1.index t (0 : Fin 2) = 0 ∧ win0_1.index t (1 : Fin 2) = 0 :=
  (by decide +kernel : ∀ t : Fin grid0.N, _)
theorem idx_b : ∀ t : Fin cfg0.N, win0_2.index t (0 : Fin 1) = 0 :=
  (by decide +kernel : ∀ t : Fin grid0.N, _)
theorem idx_h : ∀ t : Fin cfg0.N, win0_3.index t (0 : Fin 2) = t.val ∧ win0_3.index t (1 : Fin 2) = 0 :=
  (by decide +kernel : ∀ t : Fin grid0.N, _)

/-- The tile of x at point t is rows 5000 t … 5000 t + 4999 of x. -/
theorem tile_x (c : Dev nD) (t : Fin cfg0.N) :
    (iblk0 V c 0 t : FVec Ideal S5000x128 .f32) = sel (rowAt t.val (tlt t)) (V c main_arg0 : FVec Ideal S100000x128 .f32) := by
  obtain ⟨e0, e1⟩ := idx_x t
  funext y
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 128 + 1 * (y 1).val = (y 1).val; rw [e1]; omega

/-- The weight's one block is the whole weight. -/
theorem tile_w (c : Dev nD) (t : Fin cfg0.N) : (iblk0 V c 1 t : FVec Ideal S64x128 .f32) = V c main_arg2 := by
  obtain ⟨e0, e1⟩ := idx_w t
  funext y
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- The bias's one block is the whole bias. -/
theorem tile_b (c : Dev nD) (t : Fin cfg0.N) : (iblk0 V c 2 t : FVec Ideal S64 .f32) = V c main_arg3 := by
  have e0 := idx_b t
  funext y
  unfold iblk0
  rw [View.read_apply]
  show V c main_arg3 _ = V c main_arg3 _
  refine congrArg (V c main_arg3) (funext fun a => Fin.ext ?_)
  match a with
  | ⟨0, _⟩ => show win0_2.index t (0 : Fin 1) * 64 + 1 * (y 0).val = (y 0).val; rw [e0]; omega

/-- What point t writes back is tile t of the dense stage of the whole x. -/
theorem flushed_eq (c : Dev nD) (t : Fin cfg0.N) :
    (dat0 V c).flushed 3 t = ((cfg0.win 3).blk t).view.read (Elt Ideal)
      (affine (V c main_arg0 : FVec Ideal S100000x128 .f32) (V c main_arg2 : FVec Ideal S64x128 .f32) (V c main_arg3 : FVec Ideal S64 .f32)) := by
  obtain ⟨e0, e1⟩ := idx_h t
  show (cfg0.win 3).cut (grid0.coords t) ((dat0 V c).after 3 t) = _
  rw [after0_3]
  unfold out0_3
  rw [View.canon_unit_zero hz]
  simp only [View.ld_unit_zero (S := S5000x128) hz, View.ld_unit_zero (S := S64x128) hz, View.ld_unit_zero (S := S64) hz1]
  rw [pay_eq, tile_x V c t, tile_w V c t, tile_b V c t, affine_sel]
  funext j
  rw [View.read_apply]
  show sel (rowAt t.val (tlt t)) (affine (V c main_arg0 : FVec Ideal S100000x128 .f32) (V c main_arg2 : FVec Ideal S64x128 .f32) (V c main_arg3 : FVec Ideal S64 .f32)) j
    = affine (V c main_arg0 : FVec Ideal S100000x128 .f32) (V c main_arg2 : FVec Ideal S64x128 .f32) (V c main_arg3 : FVec Ideal S64 .f32) _
  unfold sel
  refine congrArg (affine (V c main_arg0 : FVec Ideal S100000x128 .f32) (V c main_arg2 : FVec Ideal S64x128 .f32) (V c main_arg3 : FVec Ideal S64 .f32))
    (funext fun a => Fin.ext ?_)
  match a with
  | ⟨0, _⟩ => show 5000 * t.val + (j 0).val = win0_3.index t (0 : Fin 2) * 5000 + 1 * (j 0).val; rw [e0]; omega
  | ⟨1, _⟩ => show (j 1).val = win0_3.index t (1 : Fin 2) * 64 + 1 * (j 1).val; rw [e1]; omega

/-- A row of h is in point t's tile iff it lies in the tile's row range (and its column in the full column range). -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4).slice (win0_3.rect t)).set ↔ _
  rw [View.set_slice_whole, Rect.mem_set_unit]
  exact Iff.rfl

/-- The 20 tiles cover h: row r lies in tile r / 5000. So after the last point h is the dense stage of the whole x,
    of the contents the stage found in its three operands. -/
theorem final (c : Dev nD) :
    (dat0 V c).arrAt 3 cfg0.N
      = affine (V c main_arg0 : FVec Ideal S100000x128 .f32) (V c main_arg2 : FVec Ideal S64x128 .f32) (V c main_arg3 : FVec Ideal S64 .f32) :=
  (dat0 V c).arrAt_eq_of_cover 3 _ (fun t _ => flushed_eq V c t) fun i => by
    have hi0 : (i 0).val < 100000 := (i 0).isLt
    have hi1 : (i 1).val < 64 := (i 1).isLt
    have hN : cfg0.N = 20 := N_0
    obtain ⟨t, ht⟩ : ∃ t : Fin cfg0.N, t.val = (i 0).val / 5000 := ⟨⟨(i 0).val / 5000, by omega⟩, rfl⟩
    obtain ⟨e0, e1⟩ := idx_h t
    refine ⟨t, flush0_3 t, ?_⟩
    rw [mem_blk]
    intro a
    match a with
    | ⟨0, _⟩ => show win0_3.index t (0 : Fin 2) * 5000 ≤ (i 0).val ∧ (i 0).val < win0_3.index t (0 : Fin 2) * 5000 + 5000
                rw [e0, ht]; omega
    | ⟨1, _⟩ => show win0_3.index t (1 : Fin 2) * 64 ≤ (i 1).val ∧ (i 1).val < win0_3.index t (1 : Fin 2) * 64 + 64
                rw [e1]; omega

end Cert.KernelIdeal.Stage0

end
-- ==== Proof.Stage1.lean ====
/-
  The second dense stage, computed 5000 rows at a time, is the stage applied to the whole matrix.
  The stage sends the aggregated matrix a (100000 × 64) to
      ( max( max( max(a, 0)·w2ᵀ + b2, 0 )·w3ᵀ + b3, 0 ) )·w4ᵀ + b4          (100000 × 40):
  rectifier, dense 64 → 64, rectifier, dense 64 → 64, rectifier, dense 64 → 40. Every step acts row by row, so the
  stage of a tile of rows is the tile of the stage; the 20 tiles cover all 100000 rows.
-/
import proofs.«105024_j65506841199132_1_alg».proof.Proof.Gen.KernelIdeal.Frame
import proofs.«105024_j65506841199132_1_alg».proof.Proof.Tiles
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx Cert.LibDenseRows Cert.Tiles
open Idealize.ShloMosaic.Pipeline (Dat)
open Cert.KernelIdeal.Facts₀ Cert.KernelIdeal.Facts

variable (V : (c : Dev nD) → (b : Ref sig .tc) → Buf (Elt Ideal) ((c : Thread nD τ).loc b))

theorem tlt (t : Fin cfg1.N) : t.val < 20 := by have h := t.isLt; have hN : cfg1.N = 20 := N_1; omega

/-- The body's arithmetic on its loaded tiles: rectifier, dense, rectifier, dense, rectifier, dense. -/
theorem pay_eq (x0 : FVec Ideal S5000x64 .f32) (x1 : FVec Ideal S64x64 .f32) (x2 : FVec Ideal S64 .f32)
    (x3 : FVec Ideal S64x64 .f32) (x4 : FVec Ideal S64 .f32) (x5 : FVec Ideal S40x64 .f32) (x6 : FVec Ideal S40 .f32) :
    k1_pay1 x0 x1 x2 x3 x4 x5 x6 = affine (rect (affine (rect (affine (rect x0) x1 x2)) x3 x4)) x5 x6 := by
  unfold k1_pay1
  dsimp only
  rw [shapeCast_self, tileRect_eq x0,
    tileDense_eq dot_S5000x64_S64x64_S5000x64_1_0_0_1_n_n Facts₀.dot_S5000x64_S64x64_S5000x64_1_0_0_1_n_n_wf rfl (rect x0) x1 x2,
    tileRect_eq (affine (rect x0) x1 x2),
    tileDense_eq dot_S5000x64_S64x64_S5000x64_1_0_0_1_n_n Facts₀.dot_S5000x64_S64x64_S5000x64_1_0_0_1_n_n_wf rfl (rect (affine (rect x0) x1 x2)) x3 x4,
    tileRect_eq (affine (rect (affine (rect x0) x1 x2)) x3 x4),
    tileDense_eq dot_S5000x64_S64x40_S5000x40_1_0_0_1_n_n Facts₀.dot_S5000x64_S64x40_S5000x40_1_0_0_1_n_n_wf rfl (rect (affine (rect (affine (rect x0) x1 x2)) x3 x4)) x5 x6]

/-- The index maps over the grid: the operand and the result sit at block (t, 0), weights and biases at block 0. -/
theorem idx_a : ∀ t : Fin cfg1.N, win1_0.index t (0 : Fin 2) = t.val ∧ win1_0.index t (1 : Fin 2) = 0 :=
  (by decide +kernel : ∀ t : Fin grid1.N, _)
theorem idx_w2 : ∀ t : Fin cfg1.N, win1_1.index t (0 : Fin 2) = 0 ∧ win1_1.index t (1 : Fin 2) = 0 :=
  (by decide +kernel : ∀ t : Fin grid1.N, _)
theorem idx_b2 : ∀ t : Fin cfg1.N, win1_2.index t (0 : Fin 1) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_b3 : ∀ t : Fin cfg1.N, win1_4.index t (0 : Fin 1) = 0 :=
  (by decide +kernel : ∀ t : Fin grid1.N, _)
theorem idx_w4 : ∀ t : Fin cfg1.N, win1_5.index t (0 : Fin 2) = 0 ∧ win1_5.index t (1 : Fin 2) = 0 :=
  (by decide +kernel : ∀ t : Fin grid1.N, _)
theorem idx_b4 : ∀ t : Fin cfg1.N, win1_6.index t (0 : Fin 1) = 0 :=
  (by decide +kernel : ∀ t : Fin grid1.N, _)
theorem idx_o : ∀ t : Fin cfg1.N, win1_7.index t (0 : Fin 2) = t.val ∧ win1_7.index t (1 : Fin 2) = 0 :=
  (by decide +kernel : ∀ t : Fin grid1.N, _)

/-- The operand's tile at point t is its rows 5000 t … 5000 t + 4999. -/
theorem tile_a (c : Dev nD) (t : Fin cfg1.N) :
    (iblk1 V c 0 t : FVec Ideal S5000x64 .f32) = sel (rowAt t.val (tlt t)) (V c main_v15 : FVec Ideal S100000x64 .f32) := by
  obtain ⟨e0, e1⟩ := idx_a t
  funext y
  unfold iblk1
  rw [View.read_apply]
  show V c main_v15 _ = V c main_v15 _
  refine congrArg (V c main_v15) (funext fun a => Fin.ext ?_)
  match a with
  | ⟨0, _⟩ => show win1_0.index t (0 : Fin 2) * 5000 + 1 * (y 0).val = 5000 * t.val + (y 0).val; rw [e0]; omega
  | ⟨1, _⟩ => show win1_0.index t (1 : Fin 2) * 64 + 1 * (y 1).val = (y 1).val; rw [e1]; omega

/-- Each weight's one block is the whole weight, each bias's the whole bias. -/
theorem tile_w2 (c : Dev nD) (t : Fin cfg1.N) : (iblk1 V c 1 t : FVec Ideal S64x64 .f32) = V c main_arg4 := by
  obtain ⟨e0, e1⟩ := idx_w2 t
  funext y
  unfold iblk1
  rw [View.read_apply]
  show V c main_arg4 _ = V c main_arg4 _
  refine congrArg (V c main_arg4) (funext fun a => Fin.ext ?_)
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

theorem tile_b2 (c : Dev nD) (t : Fin cfg1.N) : (iblk1 V c 2 t : FVec Ideal S64 .f32) = V c main_arg5 := by
  have e0 := idx_b2 t
  funext y
  unfold iblk1
  rw [View.read_apply]
  show V c main_arg5 _ = V c main_arg5 _
  refine congrArg (V c main_arg5) (funext fun a => Fin.ext ?_)
  match a with
  | ⟨0, _⟩ => show win1_2.index t (0 : Fin 1) * 64 + 1 * (y 0).val = (y 0).val; rw [e0]; omega

theorem tile_w3 (c : Dev nD) (t : Fin cfg1.N) : (iblk1 V c 3 t : FVec Ideal S64x64 .f32) = V c main_arg6 := by
  obtain ⟨e0, e1⟩ := idx_w3 t
  funext y
  unfold iblk1
  rw [View.read_apply]
  show V c main_arg6 _ = V c main_arg6 _
  refine congrArg (V c main_arg6) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem tile_b3 (c : Dev nD) (t : Fin cfg1.N) : (iblk1 V c 4 t : FVec Ideal S64 .f32) = V c main_arg7 := by
  have e0 := idx_b3 t
  funext y
  unfold iblk1
  rw [View.read_apply]
  show V c main_arg7 _ = V c main_arg7 _
  refine congrArg (V c main_arg7) (funext fun a => Fin.ext ?_)
  match a with
  | ⟨0, _⟩ => show win1_4.index t (0 : Fin 1) * 64 + 1 * (y 0).val = (y 0).val; rw [e0]; omega

theorem tile_w4 (c : Dev nD) (t : Fin cfg1.N) : (iblk1 V c 5 t : FVec Ideal S40x64 .f32) = V c main_arg8 := by
  obtain ⟨e0, e1⟩ := idx_w4 t
  funext y
  unfold iblk1
  rw [View.read_apply]
  show V c main_arg8 _ = V c main_arg8 _
  refine congrArg (V c main_arg8) (funext fun a => Fin.ext ?_)
  match a with
  | ⟨0, _⟩ => show win1_5.index t (0 : Fin 2) * 40 + 1 * (y 0).val = (y 0).val; rw [e0]; omega
  | ⟨1, _⟩ => show win1_5.index t (1 : Fin 2) * 64 + 1 * (y 1).val = (y 1).val; rw [e1]; omega

theorem tile_b4 (c : Dev nD) (t : Fin cfg1.N) : (iblk1 V c 6 t : FVec Ideal S40 .f32) = V c main_arg9 := by
  have e0 := idx_b4 t
  funext y
  unfold iblk1
  rw [View.read_apply]
  show V c main_arg9 _ = V c main_arg9 _
  refine congrArg (V c main_arg9) (funext fun a => Fin.ext ?_)
  match a with
  | ⟨0, _⟩ => show win1_6.index t (0 : Fin 1) * 40 + 1 * (y 0).val = (y 0).val; rw [e0]; omega

/-- What point t writes back is tile t of the stage applied to the whole operand. -/
theorem flushed_eq (c : Dev nD) (t : Fin cfg1.N) :
    (dat1 V c).flushed 7 t = ((cfg1.win 7).blk t).view.read (Elt Ideal)
      (affine (rect (affine (rect (affine (rect (V c main_v15 : FVec Ideal S100000x64 .f32)) (V c main_arg4 : FVec Ideal S64x64 .f32) (V c main_arg5 : FVec Ideal S64 .f32)))
        (V c main_arg6 : FVec Ideal S64x64 .f32) (V c main_arg7 : FVec Ideal S64 .f32))) (V c main_arg8 : FVec Ideal S40x64 .f32) (V c main_arg9 : FVec Ideal S40 .f32)) := by
  obtain ⟨e0, e1⟩ := idx_o t
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S64) hz1,
    View.ld_unit_zero (S := S40x64) hz, View.ld_unit_zero (S := S40) hz1]
  rw [pay_eq, tile_a V c t, tile_w2 V c t, tile_b2 V c t, tile_w3 V c t, tile_b3 V c t, tile_w4 V c t, tile_b4 V c t]
  simp only [rect_sel, affine_sel]
  funext j
  rw [View.read_apply]
  show sel (rowAt t.val (tlt t)) (affine (rect (affine (rect (affine (rect (V c main_v15 : FVec Ideal S100000x64 .f32)) (V c main_arg4 : FVec Ideal S64x64 .f32) (V c main_arg5 : FVec Ideal S64 .f32)))
        (V c main_arg6 : FVec Ideal S64x64 .f32) (V c main_arg7 : FVec Ideal S64 .f32))) (V c main_arg8 : FVec Ideal S40x64 .f32) (V c main_arg9 : FVec Ideal S40 .f32)) j
    = (affine (rect (affine (rect (affine (rect (V c main_v15 : FVec Ideal S100000x64 .f32)) (V c main_arg4 : FVec Ideal S64x64 .f32) (V c main_arg5 : FVec Ideal S64 .f32)))
        (V c main_arg6 : FVec Ideal S64x64 .f32) (V c main_arg7 : FVec Ideal S64 .f32))) (V c main_arg8 : FVec Ideal S40x64 .f32) (V c main_arg9 : FVec Ideal S40 .f32)) _
  unfold sel
  refine congrArg (affine (rect (affine (rect (affine (rect (V c main_v15 : FVec Ideal S100000x64 .f32)) (V c main_arg4 : FVec Ideal S64x64 .f32) (V c main_arg5 : FVec Ideal S64 .f32)))
        (V c main_arg6 : FVec Ideal S64x64 .f32) (V c main_arg7 : FVec Ideal S64 .f32))) (V c main_arg8 : FVec Ideal S40x64 .f32) (V c main_arg9 : FVec Ideal S40 .f32))
    (funext fun a => Fin.ext ?_)
  match a with
  | ⟨0, _⟩ => show 5000 * t.val + (j 0).val = win1_7.index t (0 : Fin 2) * 5000 + 1 * (j 0).val; rw [e0]; omega
  | ⟨1, _⟩ => show (j 1).val = win1_7.index t (1 : Fin 2) * 40 + 1 * (j 1).val; rw [e1]; omega

/-- A row of the result is in point t's tile iff it lies in the tile's row range. -/
theorem mem_blk (t : Fin cfg1.N) (i : S100000x40.Idx) :
    i ∈ ((cfg1.win 7).blk t).view.set ↔ ∀ a : Fin 2, win1_7.index t a * S5000x40.size a ≤ (i a).val ∧ (i a).val < win1_7.index t a * S5000x40.size a + S5000x40.size a := by
  show i ∈ ((View.whole main_v16).slice (win1_7.rect t)).set ↔ _
  rw [View.set_slice_whole, Rect.mem_set_unit]
  exact Iff.rfl

/-- The 20 tiles cover the result: row r lies in tile r / 5000. So after the last point the result is the stage applied
    to the whole operand, of the contents the stage found in its seven operands. -/
theorem final (c : Dev nD) :
    (dat1 V c).arrAt 7 cfg1.N
      = affine (rect (affine (rect (affine (rect (V c main_v15 : FVec Ideal S100000x64 .f32)) (V c main_arg4 : FVec Ideal S64x64 .f32) (V c main_arg5 : FVec Ideal S64 .f32)))
        (V c main_arg6 : FVec Ideal S64x64 .f32) (V c main_arg7 : FVec Ideal S64 .f32))) (V c main_arg8 : FVec Ideal S40x64 .f32) (V c main_arg9 : FVec Ideal S40 .f32) :=
  (dat1 V c).arrAt_eq_of_cover 7 _ (fun t _ => flushed_eq V c t) fun i => by
    have hi0 : (i 0).val < 100000 := (i 0).isLt
    have hi1 : (i 1).val < 40 := (i 1).isLt
    have hN : cfg1.N = 20 := N_1
    obtain ⟨t, ht⟩ : ∃ t : Fin cfg1.N, t.val = (i 0).val / 5000 := ⟨⟨(i 0).val / 5000, by omega⟩, rfl⟩
    obtain ⟨e0, e1⟩ := idx_o t
    refine ⟨t, flush1_7 t, ?_⟩
    rw [mem_blk]
    intro a
    match a with
    | ⟨0, _⟩ => show win1_7.index t (0 : Fin 2) * 5000 ≤ (i 0).val ∧ (i 0).val < win1_7.index t (0 : Fin 2) * 5000 + 5000
                rw [e0, ht]; omega
    | ⟨1, _⟩ => show win1_7.index t (1 : Fin 2) * 40 ≤ (i 1).val ∧ (i 1).val < win1_7.index t (1 : Fin 2) * 40 + 40
                rw [e1]; omega

end Cert.KernelIdeal.Stage1

end
-- ==== Proof.Stage2.lean ====
/-
  The third dense stage, computed 5000 rows at a time, is the stage applied to the whole matrix.
  The stage sends the second aggregated matrix a (100000 × 40) to
      ( max( max(a, 0)·w5ᵀ + b5, 0 ) )·w6ᵀ + b6          (100000 × 40):
  rectifier, dense 40 → 40, rectifier, dense 40 → 40. Every step acts row by row, so the stage of a tile of rows is the
  tile of the stage; the 20 tiles cover all 100000 rows.
-/
import proofs.«105024_j65506841199132_1_alg».proof.Proof.Gen.KernelIdeal.Frame
import proofs.«105024_j65506841199132_1_alg».proof.Proof.Tiles
import Idealize.ShloMosaic.Lib.Pipeline.Value

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.ValueIdx Cert.LibDenseRows Cert.Tiles
open Idealize.ShloMosaic.Pipeline (Dat)
open Cert.KernelIdeal.Facts₀ Cert.KernelIdeal.Facts

variable (V : (c : Dev nD) → (b : Ref sig .tc) → Buf (Elt Ideal) ((c : Thread nD τ).loc b))

theorem tlt (t : Fin cfg2.N) : t.val < 20 := by have h := t.isLt; have hN : cfg2.N = 20 := N_2; omega

/-- The body's arithmetic on its loaded tiles: rectifier, dense, rectifier, dense. -/
theorem pay_eq (x0 : FVec Ideal S5000x40 .f32) (x1 : FVec Ideal S40x40 .f32) (x2 : FVec Ideal S40 .f32)
    (x3 : FVec Ideal S40x40 .f32) (x4 : FVec Ideal S40 .f32) :
    k2_pay1 x0 x1 x2 x3 x4 = affine (rect (affine (rect x0) x1 x2)) x3 x4 := by
  unfold k2_pay1
  dsimp only
  rw [shapeCast_self, tileRect_eq x0,
    tileDense_eq dot_S5000x40_S40x40_S5000x40_1_0_0_1_n_n Facts₀.dot_S5000x40_S40x40_S5000x40_1_0_0_1_n_n_wf rfl (rect x0) x1 x2,
    tileRect_eq (affine (rect x0) x1 x2),
    tileDense_eq dot_S5000x40_S40x40_S5000x40_1_0_0_1_n_n Facts₀.dot_S5000x40_S40x40_S5000x40_1_0_0_1_n_n_wf rfl (rect (affine (rect x0) x1 x2)) x3 x4]

/-- The index maps over the grid: the operand and the result sit at block (t, 0), weights and biases at block 0. -/
theorem idx_a : ∀ t : Fin cfg2.N, win2_0.index t (0 : Fin 2) = t.val ∧ win2_0.index t (1 : Fin 2) = 0 :=
  (by decide +kernel : ∀ t : Fin grid2.N, _)
theorem idx_w5 : ∀ t : Fin cfg2.N, win2_1.index t (0 : Fin 2) = 0 ∧ win2_1.index t (1 : Fin 2) = 0 :=
  (by decide +kernel : ∀ t : Fin grid2.N, _)
theorem idx_b5 : ∀ t : Fin cfg2.N, win2_2.index t (0 : Fin 1) = 0 :=
  (by decide +kernel : ∀ t : Fin grid2.N, _)
theorem idx_w6 : ∀ t : Fin cfg2.N, win2_3.index t (0 : Fin 2) = 0 ∧ win2_3.index t (1 : Fin 2) = 0 :=
  (by decide +kernel : ∀ t : Fin grid2.N, _)
theorem idx_b6 : ∀ t : Fin cfg2.N, win2_4.index t (0 : Fin 1) = 0 :=
  (by decide +kernel : ∀ t : Fin grid2.N, _)
theorem idx_o : ∀ t : Fin cfg2.N, win2_5.index t (0 : Fin 2) = t.val ∧ win2_5.index t (1 : Fin 2) = 0 :=
  (by decide +kernel : ∀ t : Fin grid2.N, _)

/-- The operand's tile at point t is its rows 5000 t … 5000 t + 4999. -/
theorem tile_a (c : Dev nD) (t : Fin cfg2.N) :
    (iblk2 V c 0 t : FVec Ideal S5000x40 .f32) = sel (rowAt t.val (tlt t)) (V c main_v27 : FVec Ideal S100000x40 .f32) := by
  obtain ⟨e0, e1⟩ := idx_a t
  funext y
  unfold iblk2
  rw [View.read_apply]
  show V c main_v27 _ = V c main_v27 _
  refine congrArg (V c main_v27) (funext fun a => Fin.ext ?_)
  match a with
  | ⟨0, _⟩ => show win2_0.index t (0 : Fin 2) * 5000 + 1 * (y 0).val = 5000 * t.val + (y 0).val; rw [e0]; omega
  | ⟨1, _⟩ => show win2_0.index t (1 : Fin 2) * 40 + 1 * (y 1).val = (y 1).val; rw [e1]; omega

/-- Each weight's one block is the whole weight, each bias's the whole bias. -/
theorem tile_w5 (c : Dev nD) (t : Fin cfg2.N) : (iblk2 V c 1 t : FVec Ideal S40x40 .f32) = V c main_arg10 := by
  obtain ⟨e0, e1⟩ := idx_w5 t
  funext y
  unfold iblk2
  rw [View.read_apply]
  show V c main_arg10 _ = V c main_arg10 _
  refine congrArg (V c main_arg10) (funext fun a => Fin.ext ?_)
  match a with
  | ⟨0, _⟩ => show win2_1.index t (0 : Fin 2) * 40 + 1 * (y 0).val = (y 0).val; rw [e0]; omega
  | ⟨1, _⟩ => show win2_1.index t (1 : Fin 2) * 40 + 1 * (y 1).val = (y 1).val; rw [e1]; omega

theorem tile_b5 (c : Dev nD) (t : Fin cfg2.N) : (iblk2 V c 2 t : FVec Ideal S40 .f32) = V c main_arg11 := by
  have e0 := idx_b5 t
  funext y
  unfold iblk2
  rw [View.read_apply]
  show V c main_arg11 _ = V c main_arg11 _
  refine congrArg (V c main_arg11) (funext fun a => Fin.ext ?_)
  match a with
  | ⟨0, _⟩ => show win2_2.index t (0 : Fin 1) * 40 + 1 * (y 0).val = (y 0).val; rw [e0]; omega

theorem tile_w6 (c : Dev nD) (t : Fin cfg2.N) : (iblk2 V c 3 t : FVec Ideal S40x40 .f32) = V c main_arg12 := by
  obtain ⟨e0, e1⟩ := idx_w6 t
  funext y
  unfold iblk2
  rw [View.read_apply]
  show V c main_arg12 _ = V c main_arg12 _
  refine congrArg (V c main_arg12) (funext fun a => Fin.ext ?_)
  match a with
  | ⟨0, _⟩ => show win2_3.index t (0 : Fin 2) * 40 + 1 * (y 0).val = (y 0).val; rw [e0]; omega
  | ⟨1, _⟩ => show win2_3.index t (1 : Fin 2) * 40 + 1 * (y 1).val = (y 1).val; rw [e1]; omega

theorem tile_b6 (c : Dev nD) (t : Fin cfg2.N) : (iblk2 V c 4 t : FVec Ideal S40 .f32) = V c main_arg13 := by
  have e0 := idx_b6 t
  funext y
  unfold iblk2
  rw [View.read_apply]
  show V c main_arg13 _ = V c main_arg13 _
  refine congrArg (V c main_arg13) (funext fun a => Fin.ext ?_)
  match a with
  | ⟨0, _⟩ => show win2_4.index t (0 : Fin 1) * 40 + 1 * (y 0).val = (y 0).val; rw [e0]; omega

/-- What point t writes back is tile t of the stage applied to the whole operand. -/
theorem flushed_eq (c : Dev nD) (t : Fin cfg2.N) :
    (dat2 V c).flushed 5 t = ((cfg2.win 5).blk t).view.read (Elt Ideal)
      (affine (rect (affine (rect (V c main_v27 : FVec Ideal S100000x40 .f32)) (V c main_arg10 : FVec Ideal S40x40 .f32) (V c main_arg11 : FVec Ideal S40 .f32)))
        (V c main_arg12 : FVec Ideal S40x40 .f32) (V c main_arg13 : FVec Ideal S40 .f32)) := by
  obtain ⟨e0, e1⟩ := idx_o t
  show (cfg2.win 5).cut (grid2.coords t) ((dat2 V c).after 5 t) = _
  rw [after2_5]
  unfold out2_5
  rw [View.canon_unit_zero hz]
  simp only [View.ld_unit_zero (S := S5000x40) hz, View.ld_unit_zero (S := S40x40) hz, View.ld_unit_zero (S := S40) hz1]
  rw [pay_eq, tile_a V c t, tile_w5 V c t, tile_b5 V c t, tile_w6 V c t, tile_b6 V c t]
  simp only [rect_sel, affine_sel]
  funext j
  rw [View.read_apply]
  show sel (rowAt t.val (tlt t)) (affine (rect (affine (rect (V c main_v27 : FVec Ideal S100000x40 .f32)) (V c main_arg10 : FVec Ideal S40x40 .f32) (V c main_arg11 : FVec Ideal S40 .f32)))
        (V c main_arg12 : FVec Ideal S40x40 .f32) (V c main_arg13 : FVec Ideal S40 .f32)) j
    = (affine (rect (affine (rect (V c main_v27 : FVec Ideal S100000x40 .f32)) (V c main_arg10 : FVec Ideal S40x40 .f32) (V c main_arg11 : FVec Ideal S40 .f32)))
        (V c main_arg12 : FVec Ideal S40x40 .f32) (V c main_arg13 : FVec Ideal S40 .f32)) _
  unfold sel
  refine congrArg (affine (rect (affine (rect (V c main_v27 : FVec Ideal S100000x40 .f32)) (V c main_arg10 : FVec Ideal S40x40 .f32) (V c main_arg11 : FVec Ideal S40 .f32)))
        (V c main_arg12 : FVec Ideal S40x40 .f32) (V c main_arg13 : FVec Ideal S40 .f32))
    (funext fun a => Fin.ext ?_)
  match a with
  | ⟨0, _⟩ => show 5000 * t.val + (j 0).val = win2_5.index t (0 : Fin 2) * 5000 + 1 * (j 0).val; rw [e0]; omega
  | ⟨1, _⟩ => show (j 1).val = win2_5.index t (1 : Fin 2) * 40 + 1 * (j 1).val; rw [e1]; omega

/-- A row of the result is in point t's tile iff it lies in the tile's row range. -/
theorem mem_blk (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v28).slice (win2_5.rect t)).set ↔ _
  rw [View.set_slice_whole, Rect.mem_set_unit]
  exact Iff.rfl

/-- The 20 tiles cover the result: row r lies in tile r / 5000. So after the last point the result is the stage applied
    to the whole operand, of the contents the stage found in its five operands. -/
theorem final (c : Dev nD) :
    (dat2 V c).arrAt 5 cfg2.N
      = affine (rect (affine (rect (V c main_v27 : FVec Ideal S100000x40 .f32)) (V c main_arg10 : FVec Ideal S40x40 .f32) (V c main_arg11 : FVec Ideal S40 .f32)))
        (V c main_arg12 : FVec Ideal S40x40 .f32) (V c main_arg13 : FVec Ideal S40 .f32) :=
  (dat2 V c).arrAt_eq_of_cover 5 _ (fun t _ => flushed_eq V c t) fun i => by
    have hi0 : (i 0).val < 100000 := (i 0).isLt
    have hi1 : (i 1).val < 40 := (i 1).isLt
    have hN : cfg2.N = 20 := N_2
    obtain ⟨t, ht⟩ : ∃ t : Fin cfg2.N, t.val = (i 0).val / 5000 := ⟨⟨(i 0).val / 5000, by omega⟩, rfl⟩
    obtain ⟨e0, e1⟩ := idx_o t
    refine ⟨t, flush2_5 t, ?_⟩
    rw [mem_blk]
    intro a
    match a with
    | ⟨0, _⟩ => show win2_5.index t (0 : Fin 2) * 5000 ≤ (i 0).val ∧ (i 0).val < win2_5.index t (0 : Fin 2) * 5000 + 5000
                rw [e0, ht]; omega
    | ⟨1, _⟩ => show win2_5.index t (1 : Fin 2) * 40 ≤ (i 1).val ∧ (i 1).val < win2_5.index t (1 : Fin 2) * 40 + 40
                rw [e1]; omega

end Cert.KernelIdeal.Stage2

end
-- ==== Proof.Aggregate.lean ====
/-
  The two-layer graph convolution as one function of the fourteen argument arrays, on the extended reals.
  Layer 1: h = x·w1ᵀ + b1 (rows of x against rows of w1); a1 = neighbourhood sums of h along the edges, plus h;
  then rectifier, dense, rectifier, dense, rectifier, dense (the last dense is layer 2's input projection).
  Layer 2: a2 = neighbourhood sums of that, plus itself; then rectifier, dense, rectifier, dense.
  The neighbourhood aggregation is a function of its matrix and of the two index vectors.
-/
import proofs.«105024_j65506841199132_1_alg».proof.Proof.Gen.KernelIdeal
import proofs.«105024_j65506841199132_1_alg».proof.Proof.LibDenseRows

noncomputable section

namespace Cert.KernelIdeal.Agg

open Cert.KernelIdeal Idealize.ShloMosaic Cert.LibDenseRows
open Cert.KernelIdeal.Facts₀ Cert.KernelIdeal.Facts

/-- Row 0 of the [2, E] edge array: the edges' source nodes. -/
def srcOf (e : (⟨S2x1000000, .i32⟩ : BufTy).Contents (Elt Ideal)) : (⟨S1000000, .i32⟩ : BufTy).Contents (Elt Ideal) :=
  shapeCast _ (extractStridedSlice S1x1000000 ![0, 0] e slices_S2x1000000_S1x1000000_0_0) shapeCasts_S1x1000000_S1000000

/-- Row 1 of the edge array: the edges' destination nodes. -/
def dstOf (e : (⟨S2x1000000, .i32⟩ : BufTy).Contents (Elt Ideal)) : (⟨S1000000, .i32⟩ : BufTy).Contents (Elt Ideal) :=
  shapeCast _ (extractStridedSlice S1x1000000 ![1, 0] e slices_S2x1000000_S1x1000000_1_0) shapeCasts_S1x1000000_S1000000

/-- One neighbourhood aggregation of an [N, 64] matrix `h` along the edges (s, d): for every edge, row s(edge) of `h` — a
    negative source index counted from the end, as the gather's index normalisation has it — is added into row
    d(edge) of a zero matrix; then `h` itself is added (every node is its own neighbour). It depends on `h` and
    on the two index vectors only. -/
def agg64 (h : FVec Ideal S100000x64 .f32) (s d : (⟨S1000000, .i32⟩ : BufTy).Contents (Elt Ideal)) : FVec Ideal S100000x64 .f32 :=
  addf (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 d)
      (Host.gather gather_S100000x64_S1000000x1_S1000000x64_1_0_n_n_0_1_164 h
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s)))) h

/-- One neighbourhood aggregation of an [N, 40] matrix `h` along the edges (s, d): for every edge, row s(edge) of `h` — a
    negative source index counted from the end, as the gather's index normalisation has it — is added into row
    d(edge) of a zero matrix; then `h` itself is added (every node is its own neighbour). It depends on `h` and
    on the two index vectors only. -/
def agg40 (h : FVec Ideal S100000x40 .f32) (s d : (⟨S1000000, .i32⟩ : BufTy).Contents (Elt Ideal)) : FVec Ideal S100000x40 .f32 :=
  addf (Host.scatterAdd scatter_S100000x40_S1000000x1_S1000000x40_1_0_0_1
      (broadcastInDim S100000x40 ![] bcast_S_S100000x40 (constant S_ .f32 0x00000000#32))
      (broadcastInDim S1000000x1 ![0] bcast_S1000000_S1000000x1_0 d)
      (Host.gather gather_S100000x40_S1000000x1_S1000000x40_1_0_n_n_0_1_140 h
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s)))) h

/-- What follows the first aggregation: rectifier, dense (64 → 64), rectifier, dense (64 → 64), rectifier, dense (64 → 40). -/
def head1 (a : FVec Ideal S100000x64 .f32) (w2 : FVec Ideal S64x64 .f32) (b2 : FVec Ideal S64 .f32) (w3 : FVec Ideal S64x64 .f32) (b3 : FVec Ideal S64 .f32)
    (w4 : FVec Ideal S40x64 .f32) (b4 : FVec Ideal S40 .f32) : FVec Ideal S100000x40 .f32 :=
  affine (rect (affine (rect (affine (rect a) w2 b2)) w3 b3)) w4 b4

/-- What follows the second aggregation: rectifier, dense (40 → 40), rectifier, dense (40 → 40). -/
def head2 (a : FVec Ideal S100000x40 .f32) (w5 : FVec Ideal S40x40 .f32) (b5 : FVec Ideal S40 .f32) (w6 : FVec Ideal S40x40 .f32) (b6 : FVec Ideal S40 .f32) :
    FVec Ideal S100000x40 .f32 :=
  affine (rect (affine (rect a) w5 b5)) w6 b6

/-- The whole map. -/
def gcn (x : FVec Ideal S100000x128 .f32) (e : (⟨S2x1000000, .i32⟩ : BufTy).Contents (Elt Ideal)) (w1 : FVec Ideal S64x128 .f32) (b1 : FVec Ideal S64 .f32)
    (w2 : FVec Ideal S64x64 .f32) (b2 : FVec Ideal S64 .f32) (w3 : FVec Ideal S64x64 .f32) (b3 : FVec Ideal S64 .f32) (w4 : FVec Ideal S40x64 .f32) (b4 : FVec Ideal S40 .f32)
    (w5 : FVec Ideal S40x40 .f32) (b5 : FVec Ideal S40 .f32) (w6 : FVec Ideal S40x40 .f32) (b6 : FVec Ideal S40 .f32) : FVec Ideal S100000x40 .f32 :=
  head2 (agg40 (head1 (agg64 (affine x w1 b1) (srcOf e) (dstOf e)) w2 b2 w3 b3 w4 b4) (srcOf e) (dstOf e)) w5 b5 w6 b6

end Cert.KernelIdeal.Agg

end
-- ==== Proof.Chain.lean ====
/-
  The buffers at each boundary of the program, followed from the launch to the return.
  After the first host stretch the two index vectors are rows 0 and 1 of the edge array; no host stretch and no dense
  stage writes a weight, a bias or an index vector, so each dense stage finds them as launched. The first stage leaves
  h = x·w1ᵀ + b1; the second host stretch leaves the aggregation of h; the second stage its rectifier/dense chain of
  that; the third host stretch the aggregation again; the third stage its chain. Composed, the result buffer ends at
  the two-layer map of the fourteen arguments.
-/
import proofs.«105024_j65506841199132_1_alg».proof.Proof.Gen.KernelIdeal.Frame
import proofs.«105024_j65506841199132_1_alg».proof.Proof.Stage0
import proofs.«105024_j65506841199132_1_alg».proof.Proof.Stage1
import proofs.«105024_j65506841199132_1_alg».proof.Proof.Stage2
import proofs.«105024_j65506841199132_1_alg».proof.Proof.Aggregate
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.LibDenseRows Cert.KernelIdeal.Agg
open Cert.KernelIdeal.Facts₀ Cert.KernelIdeal.Facts

variable (m : (ℓ : Loc nD τ sig) → Buf (Elt Ideal) ℓ) (ρ : Dev nD → PrngReg)

/-! ## The first host stretch: the edge array's two rows; every argument untouched -/

theorem at1_arg0 (c : Dev nD) : V1 m ρ c main_arg0 = m ((c : Thread nD τ).loc main_arg0) := by
  show W1 m ρ c (Proc.devRef .tc main_arg0) = _
  dsimp only [W1, hostOps0]
  after_results
  try rfl
theorem at1_arg2 (c : Dev nD) : V1 m ρ c main_arg2 = m ((c : Thread nD τ).loc main_arg2) := by
  show W1 m ρ c (Proc.devRef .tc main_arg2) = _
  dsimp only [W1, hostOps0]
  after_results
  try rfl
theorem at1_arg3 (c : Dev nD) : V1 m ρ c main_arg3 = m ((c : Thread nD τ).loc main_arg3) := by
  show W1 m ρ c (Proc.devRef .tc main_arg3) = _
  dsimp only [W1, hostOps0]
  after_results
  try rfl
theorem at1_arg4 (c : Dev nD) : V1 m ρ c main_arg4 = m ((c : Thread nD τ).loc main_arg4) := by
  show W1 m ρ c (Proc.devRef .tc main_arg4) = _
  dsimp only [W1, hostOps0]
  after_results
  try rfl
theorem at1_arg5 (c : Dev nD) : V1 m ρ c main_arg5 = m ((c : Thread nD τ).loc main_arg5) := by
  show W1 m ρ c (Proc.devRef .tc main_arg5) = _
  dsimp only [W1, hostOps0]
  after_results
  try rfl
theorem at1_arg6 (c : Dev nD) : V1 m ρ c main_arg6 = m ((c : Thread nD τ).loc main_arg6) := by
  show W1 m ρ c (Proc.devRef .tc main_arg6) = _
  dsimp only [W1, hostOps0]
  after_results
  try rfl
theorem at1_arg7 (c : Dev nD) : V1 m ρ c main_arg7 = m ((c : Thread nD τ).loc main_arg7) := by
  show W1 m ρ c (Proc.devRef .tc main_arg7) = _
  dsimp only [W1, hostOps0]
  after_results
  try rfl
theorem at1_arg8 (c : Dev nD) : V1 m ρ c main_arg8 = m ((c : Thread nD τ).loc main_arg8) := by
  show W1 m ρ c (Proc.devRef .tc main_arg8) = _
  dsimp only [W1, hostOps0]
  after_results
  try rfl
theorem at1_arg9 (c : Dev nD) : V1 m ρ c main_arg9 = m ((c : Thread nD τ).loc main_arg9) := by
  show W1 m ρ c (Proc.devRef .tc main_arg9) = _
  dsimp only [W1, hostOps0]
  after_results
  try rfl
theorem at1_arg10 (c : Dev nD) : V1 m ρ c main_arg10 = m ((c : Thread nD τ).loc main_arg10) := by
  show W1 m ρ c (Proc.devRef .tc main_arg10) = _
  dsimp only [W1, hostOps0]
  after_results
  try rfl
theorem at1_arg11 (c : Dev nD) : V1 m ρ c main_arg11 = m ((c : Thread nD τ).loc main_arg11) := by
  show W1 m ρ c (Proc.devRef .tc main_arg11) = _
  dsimp only [W1, hostOps0]
  after_results
  try rfl
theorem at1_arg12 (c : Dev nD) : V1 m ρ c main_arg12 = m ((c : Thread nD τ).loc main_arg12) := by
  show W1 m ρ c (Proc.devRef .tc main_arg12) = _
  dsimp only [W1, hostOps0]
  after_results
  try rfl
theorem at1_arg13 (c : Dev nD) : V1 m ρ c main_arg13 = m ((c : Thread nD τ).loc main_arg13) := by
  show W1 m ρ c (Proc.devRef .tc main_arg13) = _
  dsimp only [W1, hostOps0]
  after_results
  try rfl

/-- The source vector is row 0 of the edge array. -/
theorem src1 (c : Dev nD) : W1 m ρ c (Proc.devRef .tc main_v1) = srcOf (m ((c : Thread nD τ).loc main_arg1)) := by
  dsimp only [W1, hostOps0]
  after_results
  try rfl

/-- The destination vector is row 1 of the edge array. -/
theorem dst1 (c : Dev nD) : W1 m ρ c (Proc.devRef .tc main_v3) = dstOf (m ((c : Thread nD τ).loc main_arg1)) := by
  dsimp only [W1, hostOps0]
  after_results
  try rfl

/-! ## The first dense stage -/

/-- After the first stage the projection buffer holds h = x·w1ᵀ + b1. -/
theorem h_eq (c : Dev nD) :
    W2 m ρ c (Proc.devRef .tc main_v4) = affine (m ((c : Thread nD τ).loc main_arg0)) (m ((c : Thread nD τ).loc main_arg2)) (m ((c : Thread nD τ).loc main_arg3)) :=
  (W2_arr m ρ c 3).trans ((Stage0.final (V1 m ρ) c).trans (by rw [at1_arg0 m ρ c, at1_arg2 m ρ c, at1_arg3 m ρ c]))

theorem src2 (c : Dev nD) : W2 m ρ c (Proc.devRef .tc main_v1) = srcOf (m ((c : Thread nD τ).loc main_arg1)) :=
  (W2_of_ne m ρ c main_v1 (by decide)).trans (src1 m ρ c)
theorem dst2 (c : Dev nD) : W2 m ρ c (Proc.devRef .tc main_v3) = dstOf (m ((c : Thread nD τ).loc main_arg1)) :=
  (W2_of_ne m ρ c main_v3 (by decide)).trans (dst1 m ρ c)

/-! ## The second host stretch: the aggregation of h -/

theorem at3_arg4 (c : Dev nD) : V3 m ρ c main_arg4 = m ((c : Thread nD τ).loc main_arg4) :=
  calc W3 m ρ c (Proc.devRef .tc main_arg4)
    _ = W2 m ρ c (Proc.devRef .tc main_arg4) := by dsimp only [W3, hostOps1]; after_results
    _ = W1 m ρ c (Proc.devRef .tc main_arg4) := W2_of_ne m ρ c main_arg4 (by decide)
    _ = m ((c : Thread nD τ).loc main_arg4) := at1_arg4 m ρ c
theorem at3_arg5 (c : Dev nD) : V3 m ρ c main_arg5 = m ((c : Thread nD τ).loc main_arg5) :=
  calc W3 m ρ c (Proc.devRef .tc main_arg5)
    _ = W2 m ρ c (Proc.devRef .tc main_arg5) := by dsimp only [W3, hostOps1]; after_results
    _ = W1 m ρ c (Proc.devRef .tc main_arg5) := W2_of_ne m ρ c main_arg5 (by decide)
    _ = m ((c : Thread nD τ).loc main_arg5) := at1_arg5 m ρ c
theorem at3_arg6 (c : Dev nD) : V3 m ρ c main_arg6 = m ((c : Thread nD τ).loc main_arg6) :=
  calc W3 m ρ c (Proc.devRef .tc main_arg6)
    _ = W2 m ρ c (Proc.devRef .tc main_arg6) := by dsimp only [W3, hostOps1]; after_results
    _ = W1 m ρ c (Proc.devRef .tc main_arg6) := W2_of_ne m ρ c main_arg6 (by decide)
    _ = m ((c : Thread nD τ).loc main_arg6) := at1_arg6 m ρ c
theorem at3_arg7 (c : Dev nD) : V3 m ρ c main_arg7 = m ((c : Thread nD τ).loc main_arg7) :=
  calc W3 m ρ c (Proc.devRef .tc main_arg7)
    _ = W2 m ρ c (Proc.devRef .tc main_arg7) := by dsimp only [W3, hostOps1]; after_results
    _ = W1 m ρ c (Proc.devRef .tc main_arg7) := W2_of_ne m ρ c main_arg7 (by decide)
    _ = m ((c : Thread nD τ).loc main_arg7) := at1_arg7 m ρ c
theorem at3_arg8 (c : Dev nD) : V3 m ρ c main_arg8 = m ((c : Thread nD τ).loc main_arg8) :=
  calc W3 m ρ c (Proc.devRef .tc main_arg8)
    _ = W2 m ρ c (Proc.devRef .tc main_arg8) := by dsimp only [W3, hostOps1]; after_results
    _ = W1 m ρ c (Proc.devRef .tc main_arg8) := W2_of_ne m ρ c main_arg8 (by decide)
    _ = m ((c : Thread nD τ).loc main_arg8) := at1_arg8 m ρ c
theorem at3_arg9 (c : Dev nD) : V3 m ρ c main_arg9 = m ((c : Thread nD τ).loc main_arg9) :=
  calc W3 m ρ c (Proc.devRef .tc main_arg9)
    _ = W2 m ρ c (Proc.devRef .tc main_arg9) := by dsimp only [W3, hostOps1]; after_results
    _ = W1 m ρ c (Proc.devRef .tc main_arg9) := W2_of_ne m ρ c main_arg9 (by decide)
    _ = m ((c : Thread nD τ).loc main_arg9) := at1_arg9 m ρ c
theorem at3_arg10 (c : Dev nD) : V3 m ρ c main_arg10 = m ((c : Thread nD τ).loc main_arg10) :=
  calc W3 m ρ c (Proc.devRef .tc main_arg10)
    _ = W2 m ρ c (Proc.devRef .tc main_arg10) := by dsimp only [W3, hostOps1]; after_results
    _ = W1 m ρ c (Proc.devRef .tc main_arg10) := W2_of_ne m ρ c main_arg10 (by decide)
    _ = m ((c : Thread nD τ).loc main_arg10) := at1_arg10 m ρ c
theorem at3_arg11 (c : Dev nD) : V3 m ρ c main_arg11 = m ((c : Thread nD τ).loc main_arg11) :=
  calc W3 m ρ c (Proc.devRef .tc main_arg11)
    _ = W2 m ρ c (Proc.devRef .tc main_arg11) := by dsimp only [W3, hostOps1]; after_results
    _ = W1 m ρ c (Proc.devRef .tc main_arg11) := W2_of_ne m ρ c main_arg11 (by decide)
    _ = m ((c : Thread nD τ).loc main_arg11) := at1_arg11 m ρ c
theorem at3_arg12 (c : Dev nD) : V3 m ρ c main_arg12 = m ((c : Thread nD τ).loc main_arg12) :=
  calc W3 m ρ c (Proc.devRef .tc main_arg12)
    _ = W2 m ρ c (Proc.devRef .tc main_arg12) := by dsimp only [W3, hostOps1]; after_results
    _ = W1 m ρ c (Proc.devRef .tc main_arg12) := W2_of_ne m ρ c main_arg12 (by decide)
    _ = m ((c : Thread nD τ).loc main_arg12) := at1_arg12 m ρ c
theorem at3_arg13 (c : Dev nD) : V3 m ρ c main_arg13 = m ((c : Thread nD τ).loc main_arg13) :=
  calc W3 m ρ c (Proc.devRef .tc main_arg13)
    _ = W2 m ρ c (Proc.devRef .tc main_arg13) := by dsimp only [W3, hostOps1]; after_results
    _ = W1 m ρ c (Proc.devRef .tc main_arg13) := W2_of_ne m ρ c main_arg13 (by decide)
    _ = m ((c : Thread nD τ).loc main_arg13) := at1_arg13 m ρ c

theorem src3 (c : Dev nD) : W3 m ρ c (Proc.devRef .tc main_v1) = srcOf (m ((c : Thread nD τ).loc main_arg1)) :=
  calc W3 m ρ c (Proc.devRef .tc main_v1)
    _ = W2 m ρ c (Proc.devRef .tc main_v1) := by dsimp only [W3, hostOps1]; after_results
    _ = srcOf (m ((c : Thread nD τ).loc main_arg1)) := src2 m ρ c
theorem dst3 (c : Dev nD) : W3 m ρ c (Proc.devRef .tc main_v3) = dstOf (m ((c : Thread nD τ).loc main_arg1)) :=
  calc W3 m ρ c (Proc.devRef .tc main_v3)
    _ = W2 m ρ c (Proc.devRef .tc main_v3) := by dsimp only [W3, hostOps1]; after_results
    _ = dstOf (m ((c : Thread nD τ).loc main_arg1)) := dst2 m ρ c

/-- The second stage's operand is the aggregation of h along the edges. -/
theorem a1_eq (c : Dev nD) :
    V3 m ρ c main_v15 = agg64 (affine (m ((c : Thread nD τ).loc main_arg0)) (m ((c : Thread nD τ).loc main_arg2)) (m ((c : Thread nD τ).loc main_arg3)))
      (srcOf (m ((c : Thread nD τ).loc main_arg1))) (dstOf (m ((c : Thread nD τ).loc main_arg1))) := by
  have e : W3 m ρ c (Proc.devRef .tc main_v15)
      = agg64 (W2 m ρ c (Proc.devRef .tc main_v4)) (W2 m ρ c (Proc.devRef .tc main_v1)) (W2 m ρ c (Proc.devRef .tc main_v3)) := by
    show StableHlo.after hostOps1 (W2 m ρ c) (Proc.devRef .tc main_v15) = _
    after_results
    try rfl
  exact e.trans (by rw [h_eq m ρ c, src2 m ρ c, dst2 m ρ c])

/-! ## The second dense stage -/

/-- After the second stage its result buffer holds the rectifier/dense chain of the aggregation. -/
theorem h2_eq (c : Dev nD) :
    W4 m ρ c (Proc.devRef .tc main_v16)
      = head1 (agg64 (affine (m ((c : Thread nD τ).loc main_arg0)) (m ((c : Thread nD τ).loc main_arg2)) (m ((c : Thread nD τ).loc main_arg3))) (srcOf (m ((c : Thread nD τ).loc main_arg1))) (dstOf (m ((c : Thread nD τ).loc main_arg1))))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 7).trans ((Stage1.final (V3 m ρ) c).trans (by
    rw [a1_eq m ρ c, at3_arg4 m ρ c, at3_arg5 m ρ c, at3_arg6 m ρ c, at3_arg7 m ρ c, at3_arg8 m ρ c, at3_arg9 m ρ c]
    rfl))

theorem src4 (c : Dev nD) : W4 m ρ c (Proc.devRef .tc main_v1) = srcOf (m ((c : Thread nD τ).loc main_arg1)) :=
  (W4_of_ne m ρ c main_v1 (by decide)).trans (src3 m ρ c)
theorem dst4 (c : Dev nD) : W4 m ρ c (Proc.devRef .tc main_v3) = dstOf (m ((c : Thread nD τ).loc main_arg1)) :=
  (W4_of_ne m ρ c main_v3 (by decide)).trans (dst3 m ρ c)

/-! ## The third host stretch: the aggregation again -/

theorem at5_arg10 (c : Dev nD) : V5 m ρ c main_arg10 = m ((c : Thread nD τ).loc main_arg10) :=
  calc W5 m ρ c (Proc.devRef .tc main_arg10)
    _ = W4 m ρ c (Proc.devRef .tc main_arg10) := by dsimp only [W5, hostOps2]; after_results
    _ = W3 m ρ c (Proc.devRef .tc main_arg10) := W4_of_ne m ρ c main_arg10 (by decide)
    _ = m ((c : Thread nD τ).loc main_arg10) := at3_arg10 m ρ c
theorem at5_arg11 (c : Dev nD) : V5 m ρ c main_arg11 = m ((c : Thread nD τ).loc main_arg11) :=
  calc W5 m ρ c (Proc.devRef .tc main_arg11)
    _ = W4 m ρ c (Proc.devRef .tc main_arg11) := by dsimp only [W5, hostOps2]; after_results
    _ = W3 m ρ c (Proc.devRef .tc main_arg11) := W4_of_ne m ρ c main_arg11 (by decide)
    _ = m ((c : Thread nD τ).loc main_arg11) := at3_arg11 m ρ c
theorem at5_arg12 (c : Dev nD) : V5 m ρ c main_arg12 = m ((c : Thread nD τ).loc main_arg12) :=
  calc W5 m ρ c (Proc.devRef .tc main_arg12)
    _ = W4 m ρ c (Proc.devRef .tc main_arg12) := by dsimp only [W5, hostOps2]; after_results
    _ = W3 m ρ c (Proc.devRef .tc main_arg12) := W4_of_ne m ρ c main_arg12 (by decide)
    _ = m ((c : Thread nD τ).loc main_arg12) := at3_arg12 m ρ c
theorem at5_arg13 (c : Dev nD) : V5 m ρ c main_arg13 = m ((c : Thread nD τ).loc main_arg13) :=
  calc W5 m ρ c (Proc.devRef .tc main_arg13)
    _ = W4 m ρ c (Proc.devRef .tc main_arg13) := by dsimp only [W5, hostOps2]; after_results
    _ = W3 m ρ c (Proc.devRef .tc main_arg13) := W4_of_ne m ρ c main_arg13 (by decide)
    _ = m ((c : Thread nD τ).loc main_arg13) := at3_arg13 m ρ c

set_option maxHeartbeats 2000000 in
/-- The third stage's operand is the aggregation of what the second stage left. -/
theorem a2_eq (c : Dev nD) :
    V5 m ρ c main_v27 = agg40 (W4 m ρ c (Proc.devRef .tc main_v16)) (srcOf (m ((c : Thread nD τ).loc main_arg1))) (dstOf (m ((c : Thread nD τ).loc main_arg1))) := by
  have e : W5 m ρ c (Proc.devRef .tc main_v27)
      = agg40 (W4 m ρ c (Proc.devRef .tc main_v16)) (W4 m ρ c (Proc.devRef .tc main_v1)) (W4 m ρ c (Proc.devRef .tc main_v3)) := by
    show StableHlo.after hostOps2 (W4 m ρ c) (Proc.devRef .tc main_v27) = _
    after_results
    try rfl
  exact e.trans (by rw [src4 m ρ c, dst4 m ρ c])

/-! ## The third dense stage, and the whole -/

/-- The result buffer ends at the two-layer map of the fourteen arguments. -/
theorem result_eq (c : Dev nD) :
    W6 m ρ c (Proc.devRef .tc main_v28)
      = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) :=
  (W6_arr m ρ c 5).trans ((Stage2.final (V5 m ρ) c).trans (by
    rw [a2_eq m ρ c, h2_eq m ρ c, at5_arg10 m ρ c, at5_arg11 m ρ c, at5_arg12 m ρ c, at5_arg13 m ρ c]
    rfl))

end Cert.KernelIdeal.Chain

end
-- ==== Proof.RefValue.lean ====
/-
  The reference's stages are the same functions of the same arrays.
  Its first projection is the dense stage x·w1ᵀ + b1 (a general product against the transposed weight, the bias
  broadcast); its aggregation stretches are the aggregation applied to the projection and to rows 0 and 1 of the edge
  array; what follows each aggregation is rectifier / dense alternately, the rectifier spelt as a maximum with a
  broadcast zero. Composed: the reference's result is the two-layer map of its fourteen arguments.
-/
import proofs.«105024_j65506841199132_1_alg».proof.Proof.Gen.ReferenceIdeal.Read
import proofs.«105024_j65506841199132_1_alg».proof.Proof.Aggregate

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Cert.LibDenseRows Cert.KernelIdeal.Agg
open Cert.ReferenceIdeal.Facts₀ Cert.ReferenceIdeal.Facts

/-- The first projection is the dense stage. -/
theorem lin_eq (x0 : (⟨S100000x128, .f32⟩ : BufTy).Contents (Elt Ideal)) (x2 : (⟨S64x128, .f32⟩ : BufTy).Contents (Elt Ideal)) (x3 : (⟨S64, .f32⟩ : BufTy).Contents (Elt Ideal)) :
    val_main_v8 (F := Ideal) x0 x2 x3 = affine x0 x2 x3 := by
  unfold val_main_v8 val_main_v5 val_main_v7 val_main_v6 val_main_v4
  exact hostDense_eq dot_S100000x128_S128x64_S100000x64_1_0_0_1_n_n Facts₀.dot_S100000x128_S128x64_S100000x64_1_0_0_1_n_n_wf rfl x0 x2 x3 _ _ _

/-- The first aggregation stretch is the aggregation of the projection along the edge array's two rows. -/
theorem agg1_eq (x0 : (⟨S100000x128, .f32⟩ : BufTy).Contents (Elt Ideal)) (x1 : (⟨S2x1000000, .i32⟩ : BufTy).Contents (Elt Ideal)) (x2 : (⟨S64x128, .f32⟩ : BufTy).Contents (Elt Ideal)) (x3 : (⟨S64, .f32⟩ : BufTy).Contents (Elt Ideal)) :
    val_main_v19 (F := Ideal) x0 x1 x2 x3 = agg64 (val_main_v8 (F := Ideal) x0 x2 x3) (srcOf x1) (dstOf x1) := by
  unfold val_main_v19 val_main_v18 val_main_v17 val_main_v16 val_main_cst val_main_v15 val_main_v14 val_main_v13 val_main_v12
    val_main_v11 val_main_c_0 val_main_v10 val_main_v9 val_main_c val_main_v3 val_main_v2 val_main_v1 val_main_v0 agg64 srcOf dstOf
  rfl

/-- What follows the first aggregation: rectifier, dense, rectifier, dense, rectifier, dense. -/
theorem head1_eq (x0 : (⟨S100000x128, .f32⟩ : BufTy).Contents (Elt Ideal)) (x1 : (⟨S2x1000000, .i32⟩ : BufTy).Contents (Elt Ideal)) (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S40x64, .f32⟩ : BufTy).Contents (Elt Ideal)) (x9 : (⟨S40, .f32⟩ : BufTy).Contents (Elt Ideal)) :
    val_main_v37 (F := Ideal) x0 x1 x2 x3 x4 x5 x6 x7 x8 x9 = head1 (val_main_v19 (F := Ideal) x0 x1 x2 x3) x4 x5 x6 x7 x8 x9 := by
  unfold val_main_v37 val_main_v34 val_main_v36 val_main_v35 val_main_v33 val_main_v32 val_main_call2_v0 val_main_call2_cst
    val_main_v31 val_main_v28 val_main_v30 val_main_v29 val_main_v27 val_main_v26 val_main_call1_v0 val_main_call1_cst
    val_main_v25 val_main_v22 val_main_v24 val_main_v23 val_main_v21 val_main_v20 val_main_call0_v0 val_main_call0_cst head1
  generalize val_main_v19 (F := Ideal) x0 x1 x2 x3 = a
  rw [hostRect_eq a,
    hostDense_eq dot_S100000x64_S64x64_S100000x64_1_0_0_1_n_n Facts₀.dot_S100000x64_S64x64_S100000x64_1_0_0_1_n_n_wf rfl (rect a) x4 x5,
    hostRect_eq (affine (rect a) x4 x5),
    hostDense_eq dot_S100000x64_S64x64_S100000x64_1_0_0_1_n_n Facts₀.dot_S100000x64_S64x64_S100000x64_1_0_0_1_n_n_wf rfl (rect (affine (rect a) x4 x5)) x6 x7,
    hostRect_eq (affine (rect (affine (rect a) x4 x5)) x6 x7),
    hostDense_eq dot_S100000x64_S64x40_S100000x40_1_0_0_1_n_n Facts₀.dot_S100000x64_S64x40_S100000x40_1_0_0_1_n_n_wf rfl (rect (affine (rect (affine (rect a) x4 x5)) x6 x7)) x8 x9]

/-- The second aggregation stretch is the aggregation of what the first layer left, along the same edges. -/
theorem agg2_eq (x0 : (⟨S100000x128, .f32⟩ : BufTy).Contents (Elt Ideal)) (x1 : (⟨S2x1000000, .i32⟩ : BufTy).Contents (Elt Ideal)) (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S40x64, .f32⟩ : BufTy).Contents (Elt Ideal)) (x9 : (⟨S40, .f32⟩ : BufTy).Contents (Elt Ideal)) :
    val_main_v48 (F := Ideal) x0 x1 x2 x3 x4 x5 x6 x7 x8 x9
      = agg40 (val_main_v37 (F := Ideal) x0 x1 x2 x3 x4 x5 x6 x7 x8 x9) (srcOf x1) (dstOf x1) := by
  unfold val_main_v48 val_main_v47 val_main_v46 val_main_v45 val_main_cst_3 val_main_v44 val_main_v43 val_main_v42 val_main_v41
    val_main_v40 val_main_c_2 val_main_v39 val_main_v38 val_main_c_1 val_main_v3 val_main_v2 val_main_v1 val_main_v0 agg40 srcOf dstOf
  rfl

/-- What follows the second aggregation: rectifier, dense, rectifier, dense. -/
theorem head2_eq (x0 : (⟨S100000x128, .f32⟩ : BufTy).Contents (Elt Ideal)) (x1 : (⟨S2x1000000, .i32⟩ : BufTy).Contents (Elt Ideal)) (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S40x64, .f32⟩ : BufTy).Contents (Elt Ideal)) (x9 : (⟨S40, .f32⟩ : BufTy).Contents (Elt Ideal))
    (x10 : (⟨S40x40, .f32⟩ : BufTy).Contents (Elt Ideal)) (x11 : (⟨S40, .f32⟩ : BufTy).Contents (Elt Ideal)) (x12 : (⟨S40x40, .f32⟩ : BufTy).Contents (Elt Ideal)) (x13 : (⟨S40, .f32⟩ : BufTy).Contents (Elt Ideal)) :
    val_main_v60 (F := Ideal) x0 x1 x2 x3 x4 x5 x6 x7 x8 x9 x10 x11 x12 x13
      = head2 (val_main_v48 (F := Ideal) x0 x1 x2 x3 x4 x5 x6 x7 x8 x9) x10 x11 x12 x13 := by
  unfold val_main_v60 val_main_v57 val_main_v59 val_main_v58 val_main_v56 val_main_v55 val_main_call4_v0 val_main_call4_cst
    val_main_v54 val_main_v51 val_main_v53 val_main_v52 val_main_v50 val_main_v49 val_main_call3_v0 val_main_call3_cst head2
  generalize val_main_v48 (F := Ideal) x0 x1 x2 x3 x4 x5 x6 x7 x8 x9 = a
  rw [hostRect_eq a,
    hostDense_eq dot_S100000x40_S40x40_S100000x40_1_0_0_1_n_n Facts₀.dot_S100000x40_S40x40_S100000x40_1_0_0_1_n_n_wf rfl (rect a) x10 x11,
    hostRect_eq (affine (rect a) x10 x11),
    hostDense_eq dot_S100000x40_S40x40_S100000x40_1_0_0_1_n_n Facts₀.dot_S100000x40_S40x40_S100000x40_1_0_0_1_n_n_wf rfl (rect (affine (rect a) x10 x11)) x12 x13]

/-- The reference's result is the two-layer map of its arguments. -/
theorem result_eq (x0 : (⟨S100000x128, .f32⟩ : BufTy).Contents (Elt Ideal)) (x1 : (⟨S2x1000000, .i32⟩ : BufTy).Contents (Elt Ideal)) (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S40x64, .f32⟩ : BufTy).Contents (Elt Ideal)) (x9 : (⟨S40, .f32⟩ : BufTy).Contents (Elt Ideal))
    (x10 : (⟨S40x40, .f32⟩ : BufTy).Contents (Elt Ideal)) (x11 : (⟨S40, .f32⟩ : BufTy).Contents (Elt Ideal)) (x12 : (⟨S40x40, .f32⟩ : BufTy).Contents (Elt Ideal)) (x13 : (⟨S40, .f32⟩ : BufTy).Contents (Elt Ideal)) :
    val_main_v60 (F := Ideal) x0 x1 x2 x3 x4 x5 x6 x7 x8 x9 x10 x11 x12 x13 = gcn x0 x1 x2 x3 x4 x5 x6 x7 x8 x9 x10 x11 x12 x13 := by
  rw [head2_eq, agg2_eq, head1_eq, agg1_eq, lin_eq]
  rfl

end Cert.ReferenceIdeal.RefValue

end
-- ==== Proof.lean ====
/-
  A two-layer graph convolution on 100000 nodes and 1000000 edges, in two forms that compute one function on the
  extended reals.
  Both forms compute, for node features x (100000 × 128) and an edge array e (2 × 1000000):
      h   = x·w1ᵀ + b1                                         (100000 × 64)
      a1  = (for every edge, row src of h added into row dst of zeros) + h
      h2  = max(max(max(a1, 0)·w2ᵀ + b2, 0)·w3ᵀ + b3, 0)·w4ᵀ + b4   (100000 × 40)
      a2  = the same aggregation of h2
      out = max(max(a2, 0)·w5ᵀ + b5, 0)·w6ᵀ + b6                (100000 × 40).
  One form computes the three dense parts 5000 rows at a time, casting the operands of each product to a narrower
  float format first — the identity on the extended reals — and runs the two aggregations between them; the other
  computes everything on whole matrices. Each dense part acts row by row, so tiling the rows changes nothing, and
  the 20 tiles cover all rows; the aggregation is the same function in both. No law beyond this is used: each
  product is the same finite sum of the same terms, so nothing is asked of the inputs' finiteness.
-/
import proofs.«105024_j65506841199132_1_alg».proof.Defs
import proofs.«105024_j65506841199132_1_alg».proof.Proof.Gen.Kernel
import proofs.«105024_j65506841199132_1_alg».proof.Proof.Gen.Kernel.Frame
import proofs.«105024_j65506841199132_1_alg».proof.Proof.Gen.KernelIdeal
import proofs.«105024_j65506841199132_1_alg».proof.Proof.Gen.KernelIdeal.Frame
import proofs.«105024_j65506841199132_1_alg».proof.Proof.Gen.ReferenceIdeal
import proofs.«105024_j65506841199132_1_alg».proof.Proof.Gen.Pre_finite_inputs
import proofs.«105024_j65506841199132_1_alg».proof.Proof.Gen.ReferenceIdeal.Run
import proofs.«105024_j65506841199132_1_alg».proof.Proof.Gen.ReferenceIdeal.Read
import proofs.«105024_j65506841199132_1_alg».proof.Proof.KernelRun
import proofs.«105024_j65506841199132_1_alg».proof.Proof.Chain
import proofs.«105024_j65506841199132_1_alg».proof.Proof.RefValue
import Idealize.ShloMosaic.Adequacy
import Idealize.ShloMosaic.Init

noncomputable section

namespace Cert.Proof

open Idealize.ShloMosaic Idealize.SL.Sem

/-- The tiled program as printed runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The whole-matrix program runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program on the extended reals rewrote none of its operations. -/
theorem preserves : Cert.preserves_Kernel_KernelIdeal := trivial

/-- From memories that agree on the fourteen arguments both programs end with the two-layer map of those arguments in
    their result buffers: the tiled one by following its buffers through the three dense stages and the two
    aggregations, the whole-matrix one stage by stage. -/
theorem algebraic : Cert.algebraic_KernelIdeal_ReferenceIdeal := by
  intro m ρ m' ρ' _ hagree
  refine ⟨fun c => Cert.KernelIdeal.Agg.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.result_eq m ρ c), (h c).2⟩)
      (Cert.KernelIdeal.ValueRun.run_value m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v60_eq m' c, h0, h1, h2, h3, h4, h5, h6, h7, h8, h9, h10, h11, h12, h13]
    exact Cert.ReferenceIdeal.RefValue.result_eq _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
